-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x128x128 : Shape := ⟨4, ![32, 128, 128, 128]⟩
abbrev S32x128 : Shape := ⟨2, ![32, 128]⟩
abbrev S32 : Shape := ⟨1, ![32]⟩
abbrev S_ : Shape := ⟨0, ![]⟩

class Facts : Prop where
  bcast_S_S32x128x128x128 : S_.BroadcastsInDim S32x128x128x128 (![] : Fin 0 → Fin S32x128x128x128.rank)
  reducesTo_S32x128x128x128_S_d0_1_2_3 : S32x128x128x128.ReducesTo [0, 1, 2, 3] S_
  h_S_ : 0 < S_.numel
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S32x128x128x128 .f32) (main_arg1 : FVec F S32x128 .f32) (main_arg2 : FVec F S32 .f32) : IVec S_ 1 :=
  let main_v0 : FVec F S32x128x128x128 .f32 := Host.absf main_arg0
  let main_cst : FVec F S_ .f32 := constant S_ .f32 0x7F800000#32
  let main_v1 : FVec F S32x128x128x128 .f32 := broadcastInDim S32x128x128x128 ![] bcast_S_S32x128x128x128 main_cst
  let main_v2 : IVec S32x128x128x128 1 := cmpf .olt main_v0 main_v1
  let main_c : IVec S_ 1 := constantI S_ 1 1#1
  let main_v3 : IVec S_ 1 := (fun x v => Host.reduce IntOp.andi x v reducesTo_S32x128x128x128_S_d0_1_2_3 h_S_) main_v2 main_c
  let main_v4 : FVec F S32x128 .f32 := Host.absf main_arg1
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S32x128x128x128 : Shape := ⟨4, ![32, 128, 128, 128]⟩
abbrev S32x128 : Shape := ⟨2, ![32, 128]⟩
abbrev S32 : Shape := ⟨1, ![32]⟩
abbrev S32x128x16384 : Shape := ⟨3, ![32, 128, 16384]⟩
abbrev S32x1 : Shape := ⟨2, ![32, 1]⟩
abbrev S32x32x128 : Shape := ⟨3, ![32, 32, 128]⟩
abbrev S1x128x8192 : Shape := ⟨3, ![1, 128, 8192]⟩
abbrev S1x32x128 : Shape := ⟨3, ![1, 32, 128]⟩
abbrev S128x8192 : Shape := ⟨2, ![128, 8192]⟩
abbrev S8192 : Shape := ⟨1, ![8192]⟩
abbrev S1x8192 : Shape := ⟨2, ![1, 8192]⟩
abbrev S32x8192 : Shape := ⟨2, ![32, 8192]⟩

abbrev nBuf : Space → Nat
  | .hbm => 6
  | .vmem => 8
  | .smem => 0
  | _ => 0

abbrev bufTy : (tb : Table) → Fin (tcTables nBuf tb) → BufTy
  | .hbm, ⟨0, _⟩ => ⟨S32x128x128x128, .f32⟩
  | .hbm, ⟨1, _⟩ => ⟨S32x128, .f32⟩
  | .hbm, ⟨2, _⟩ => ⟨S32, .f32⟩
  | .hbm, ⟨3, _⟩ => ⟨S32x128x16384, .f32⟩
  | .hbm, ⟨4, _⟩ => ⟨S32x1, .f32⟩
  | .hbm, ⟨5, _⟩ => ⟨S32x32x128, .f32⟩
  | .local _ .vmem, ⟨0, _⟩ => ⟨S1x128x8192, .f32⟩
  | .local _ .vmem, ⟨1, _⟩ => ⟨S1x128x8192, .f32⟩
  | .local _ .vmem, ⟨2, _⟩ => ⟨S32x128, .f32⟩
  | .local _ .vmem, ⟨3, _⟩ => ⟨S32x1, .f32⟩
  | .local _ .vmem, ⟨4, _⟩ => ⟨S1x32x128, .f32⟩
  | .local _ .vmem, ⟨5, _⟩ => ⟨S1x32x128, .f32⟩
  | .local _ .vmem, ⟨6, _⟩ => ⟨S32x128, .f32⟩
  | .local _ .vmem, ⟨7, _⟩ => ⟨S32x1, .f32⟩
  | _, _ => ⟨S32x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v48 : BitVec 1 := Scalar.cmpi .eq arg1 c1_i32
  let v49 : BitVec 32 := Scalar.extui v48
  let c0_i32_22 : BitVec 32 := 0#32
  let v50 : BitVec 1 := Scalar.cmpi .ne v49 c0_i32_22
  v50

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S32x128x128x128_S32x128x16384 : S32x128x128x128.ShapeCasts S32x128x16384
  shapeCasts_S32_S32x1 : S32.ShapeCasts S32x1
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x128x8192_S1x128x8192_0_0_0 : ∀ a, (![0, 0, 0] : Fin 3 → Nat) a + S1x128x8192.size a ≤ S1x128x8192.size a
  h_S1x128x8192 : 0 < S1x128x8192.numel
  shapeCasts_S1x128x8192_S128x8192 : S1x128x8192.ShapeCasts S128x8192
  bitsLt_bf16_f32 : FTy.bits .bf16 < FTy.bits .f32
  reduces_S128x8192_S8192 : S128x8192.Reduces [0] S8192
  shapeCasts_S8192_S1x8192 : S8192.ShapeCasts S1x8192
  reduces_S32x128_S32 : S32x128.Reduces [1] S32
  broadcasts_S1x8192_S32x8192 : S1x8192.Broadcasts S32x8192
  broadcasts_S32x1_S32x8192 : S32x1.Broadcasts S32x8192
  reduces_S32x8192_S8192 : S32x8192.Reduces [0] S8192
  reduces_S32x8192_S32 : S32x8192.Reduces [1] S32
  broadcasts_S32x1_S32x128 : S32x1.Broadcasts S32x128
  inb_S1x32x128_S1x32x128_0_0_0 : ∀ a, (![0, 0, 0] : Fin 3 → Nat) a + S1x32x128.size a ≤ S1x32x128.size a
  h_S1x32x128 : 0 < S1x32x128.numel
  shapeCasts_S1x32x128_S32x128 : S1x32x128.ShapeCasts S32x128
  shapeCasts_S32x128_S1x32x128 : S32x128.ShapeCasts S1x32x128
  dot_S32x128_S128x8192_S32x8192_1_0_0_1_n_n_wf : DotDims.WF S32x128 S128x8192 S32x8192 [1] [0] [0] [1] [] []
  dot_S32x8192_S128x8192_S32x128_1_1_0_0_n_n_wf : DotDims.WF S32x8192 S128x8192 S32x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x8192.size a ≤ S32x128x16384.size a
  hwx0_0 : ∀ i : grid0.Coords, EltTy.bits .f32 = 32 ∨ (Rect.block (s := S32x128x16384) S1x128x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x128.size a ≤ S32x32x128.size a
  hwx0_3 : ∀ i : grid0.Coords, EltTy.bits .f32 = 32 ∨ (Rect.block (s := S32x32x128) S1x32x128.size (cc0_transform_3 i) (hinb0_3 i)).WholeWords (EltTy.packing .f32)

variable [Facts₀]

def dot_S32x128_S128x8192_S32x8192_1_0_0_1_n_n : DotDims S32x128 S128x8192 S32x8192 where
  lhsContracting := [1]
  rhsContracting := [0]
  lhsNonContracting := [0]
  rhsNonContracting := [1]
  lhsBatch := []
  rhsBatch := []
  wf := dot_S32x128_S128x8192_S32x8192_1_0_0_1_n_n_wf
def dot_S32x8192_S128x8192_S32x128_1_1_0_0_n_n : DotDims S32x8192 S128x8192 S32x128 where
  lhsContracting := [1]
  rhsContracting := [1]
  lhsNonContracting := [0]
  rhsNonContracting := [0]
  lhsBatch := []
  rhsBatch := []
  wf := dot_S32x8192_S128x8192_S32x128_1_1_0_0_n_n_wf

abbrev win0_0 : Pipeline.Window sig grid0 :=
  Pipeline.Window.ofSpec (Memref.whole main_v0) S1x128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x32x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32x128x128x128 : Shape := ⟨4, ![32, 128, 128, 128]⟩
abbrev S32x128 : Shape := ⟨2, ![32, 128]⟩
abbrev S32 : Shape := ⟨1, ![32]⟩
abbrev S32x128x16384 : Shape := ⟨3, ![32, 128, 16384]⟩
abbrev S32x16384x128 : Shape := ⟨3, ![32, 16384, 128]⟩
abbrev S_ : Shape := ⟨0, ![]⟩
abbrev S32x16384 : Shape := ⟨2, ![32, 16384]⟩
abbrev S32x16384x1 : Shape := ⟨3, ![32, 16384, 1]⟩
abbrev S32x16384x32 : Shape := ⟨3, ![32, 16384, 32]⟩
abbrev S1x1x32 : Shape := ⟨3, ![1, 1, 32]⟩
abbrev S32x32x128 : Shape := ⟨3, ![32, 32, 128]⟩
abbrev S32x32 : Shape := ⟨2, ![32, 32]⟩
abbrev S32x32x1 : Shape := ⟨3, ![32, 32, 1]⟩
abbrev S1x32x128 : Shape := ⟨3, ![1, 32, 128]⟩

abbrev nBuf : Space → Nat
  | .hbm => 47
  | .vmem => 0
  | .smem => 0
  | _ => 0

abbrev bufTy : (tb : Table) → Fin (tcTables nBuf tb) → BufTy
  | .hbm, ⟨0, _⟩ => ⟨S32x128x128x128, .f32⟩
  | .hbm, ⟨1, _⟩ => ⟨S32x128, .f32⟩
  | .hbm, ⟨2, _⟩ => ⟨S32, .f32⟩
  | .hbm, ⟨3, _⟩ => ⟨S32x128x16384, .f32⟩
  | .hbm, ⟨4, _⟩ => ⟨S32x16384x128, .f32⟩
  | .hbm, ⟨5, _⟩ => ⟨S32x16384x128, .f32⟩
  | .hbm, ⟨6, _⟩ => ⟨S_, .f32⟩
  | .hbm, ⟨7, _⟩ => ⟨S32x16384, .f32⟩
  | .hbm, ⟨8, _⟩ => ⟨S32x16384x1, .f32⟩
  | .hbm, ⟨9, _⟩ => ⟨S32x128, .f32⟩
  | .hbm, ⟨10, _⟩ => ⟨S_, .f32⟩
  | .hbm, ⟨11, _⟩ => ⟨S32, .f32⟩
  | .hbm, ⟨12, _⟩ => ⟨S32x16384x32, .f32⟩
  | .hbm, ⟨13, _⟩ => ⟨S_, .f32⟩
  | .hbm, ⟨14, _⟩ => ⟨S32x16384x32, .f32⟩
  | .hbm, ⟨15, _⟩ => ⟨S32x16384x32, .f32⟩
  | .hbm, ⟨16, _⟩ => ⟨S32x16384x32, .f32⟩
  | .hbm, ⟨17, _⟩ => ⟨S32x16384x32, .f32⟩
  | .hbm, ⟨18, _⟩ => ⟨S1x1x32, .f32⟩
  | .hbm, ⟨19, _⟩ => ⟨S32x16384x32, .f32⟩
  | .hbm, ⟨20, _⟩ => ⟨S32x16384x32, .f32⟩
  | .hbm, ⟨21, _⟩ => ⟨S1x1x32, .f32⟩
  | .hbm, ⟨22, _⟩ => ⟨S32x16384x32, .f32⟩
  | .hbm, ⟨23, _⟩ => ⟨S32x16384x32, .f32⟩
  | .hbm, ⟨24, _⟩ => ⟨S_, .f32⟩
  | .hbm, ⟨25, _⟩ => ⟨S32x16384, .f32⟩
  | .hbm, ⟨26, _⟩ => ⟨S_, .f32⟩
  | .hbm, ⟨27, _⟩ => ⟨S32x16384, .f32⟩
  | .hbm, ⟨28, _⟩ => ⟨S32x16384, .f32⟩
  | .hbm, ⟨29, _⟩ => ⟨S32x16384x1, .f32⟩
  | .hbm, ⟨30, _⟩ => ⟨S32x16384x32, .f32⟩
  | .hbm, ⟨31, _⟩ => ⟨S32x16384x32, .f32⟩
  | .hbm, ⟨32, _⟩ => ⟨S32x16384x32, .f32⟩
  | .hbm, ⟨33, _⟩ => ⟨S_, .f32⟩
  | .hbm, ⟨34, _⟩ => ⟨S32x16384, .f32⟩
  | .hbm, ⟨35, _⟩ => ⟨S32x16384x1, .f32⟩
  | .hbm, ⟨36, _⟩ => ⟨S32x16384x32, .f32⟩
  | .hbm, ⟨37, _⟩ => ⟨S32x16384x32, .f32⟩
  | .hbm, ⟨38, _⟩ => ⟨S32x32x128, .f32⟩
  | .hbm, ⟨39, _⟩ => ⟨S_, .f32⟩
  | .hbm, ⟨40, _⟩ => ⟨S32x32, .f32⟩
  | .hbm, ⟨41, _⟩ => ⟨S32x32x1, .f32⟩
  | .hbm, ⟨42, _⟩ => ⟨S1x32x128, .f32⟩
  | .hbm, ⟨43, _⟩ => ⟨S32x32x128, .f32⟩
  | .hbm, ⟨44, _⟩ => ⟨S32x32x128, .f32⟩
  | .hbm, ⟨45, _⟩ => ⟨S32x32x128, .f32⟩
  | .hbm, ⟨46, _⟩ => ⟨S32x32x128, .f32⟩
  | _, _ => ⟨S32x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]

class Facts₀ : Prop where
  shapeCasts_S32x128x128x128_S32x128x16384 : S32x128x128x128.ShapeCasts S32x128x16384
  transposes_S32x128x16384_S32x16384x128_0_2_1 : S32x128x16384.Transposes [0, 2, 1] S32x16384x128
  reducesTo_S32x16384x128_S32x16384_d2 : S32x16384x128.ReducesTo [2] S32x16384
  h_S_ : 0 < S_.numel
  bcast_S32x16384_S32x16384x1_0_1 : S32x16384.BroadcastsInDim S32x16384x1 (![0, 1] : Fin 2 → Fin S32x16384x1.rank)
  reducesTo_S32x128_S32_d1 : S32x128.ReducesTo [1] S32
  bcast_S_S32x16384x32 : S_.BroadcastsInDim S32x16384x32 (![] : Fin 0 → Fin S32x16384x32.rank)
  bcast_S32x16384x1_S32x16384x32_0_1_2 : S32x16384x1.BroadcastsInDim S32x16384x32 (![0, 1, 2] : Fin 3 → Fin S32x16384x32.rank)
  bcast_S32_S1x1x32_2 : S32.BroadcastsInDim S1x1x32 (![2] : Fin 1 → Fin S1x1x32.rank)
  bcast_S1x1x32_S32x16384x32_0_1_2 : S1x1x32.BroadcastsInDim S32x16384x32 (![0, 1, 2] : Fin 3 → Fin S32x16384x32.rank)
  reducesTo_S32x16384x32_S32x16384_d2 : S32x16384x32.ReducesTo [2] S32x16384
  bcast_S_S32x16384 : S_.BroadcastsInDim S32x16384 (![] : Fin 0 → Fin S32x16384.rank)
  reducesTo_S32x16384x32_S32x32_d1 : S32x16384x32.ReducesTo [1] S32x32
  bcast_S32x32_S32x32x1_0_1 : S32x32.BroadcastsInDim S32x32x1 (![0, 1] : Fin 2 → Fin S32x32x1.rank)
  bcast_S32x128_S1x32x128_1_2 : S32x128.BroadcastsInDim S1x32x128 (![1, 2] : Fin 2 → Fin S1x32x128.rank)
  bcast_S32x32x1_S32x32x128_0_1_2 : S32x32x1.BroadcastsInDim S32x32x128 (![0, 1, 2] : Fin 3 → Fin S32x32x128.rank)
  bcast_S1x32x128_S32x32x128_0_1_2 : S1x32x128.BroadcastsInDim S32x32x128 (![0, 1, 2] : Fin 3 → Fin S32x32x128.rank)
  dot_S32x16384x128_S32x128_S32x16384x32_2_1_01_0_n_n_wf : DotDims.WF S32x16384x128 S32x128 S32x16384x32 [2] [1] [0, 1] [0] [] []
  dot_S32x16384x32_S32x16384x128_S32x32x128_1_1_2_2_0_0_wf : DotDims.WF S32x16384x32 S32x16384x128 S32x32x128 [1] [1] [2] [2] [0] [0]

variable [Facts₀]

def dot_S32x16384x128_S32x128_S32x16384x32_2_1_01_0_n_n : DotDims S32x16384x128 S32x128 S32x16384x32 where
  lhsContracting := [2]
  rhsContracting := [1]
  lhsNonContracting := [0, 1]
  rhsNonContracting := [0]
  lhsBatch := []
  rhsBatch := []
  wf := dot_S32x16384x128_S32x128_S32x16384x32_2_1_01_0_n_n_wf
def dot_S32x16384x32_S32x16384x128_S32x32x128_1_1_2_2_0_0 : DotDims S32x16384x32 S32x16384x128 S32x32x128 where
  lhsContracting := [1]
  rhsContracting := [1]
  lhsNonContracting := [2]
  rhsNonContracting := [2]
  lhsBatch := [0]
  rhsBatch := [0]
  wf := dot_S32x16384x32_S32x16384x128_S32x32x128_1_1_2_2_0_0_wf

class Facts : Prop extends Facts₀ where

variable [Facts]
-- ==== Proof.Spec.lean ====
/-
  The soft-assignment encoding as ONE function of the three argument arrays, index by index, on the extended reals.

  For a batch entry `b` and a spatial position `n` write `x = X[b, ·, n]` (a column of 128 channels). Codeword `k`
  (a row `cw k` of 128 channels, with a scale `sc k`) gets the scaled squared distance
      scaled k = sc k · ((Σ_c x_c² − 2 · Σ_c cw_kc · x_c) + Σ_c cw_kc²),
  the softmax over the 32 codewords of these numbers is
      weight k = exp (scaled k − max_k' scaled k') / Σ_k' exp (scaled k' − max_k'' scaled k''),
  and the encoding sums over the 16384 positions:
      enc[b, k, c] = Σ_n weight_n k · X[b, c, n] − (Σ_n weight_n k) · cw_kc.

  Also here: the one law the certificate needs that is not a term-by-term identity — a sum over the 16384 positions
  is the sum over its lower half plus the sum over its upper half (from a zero start), which holds in any additive
  commutative monoid, so no finiteness of the inputs is used anywhere.
-/
import Idealize.ShloMosaic.PureOps.Ideal
import Idealize.ShloMosaic.Lib.ValueIdx

noncomputable section

namespace Cert.SoftAssign

open Idealize.ShloMosaic Idealize.ShloMosaic.ValueIdx

/-- The literal `2.0` both programs multiply the cross term by (never evaluated: the same word on both sides). -/
abbrev two : EReal := Ideal.ofBits .f32 0x40000000#32
/-- The literal `-∞` both maxima start from. -/
abbrev negInf : EReal := Ideal.ofBits .f32 0xFF800000#32

/-- The scaled squared distance of a column `col` of 128 channels to codeword `k`. -/
def scaled (col : Fin 128 → EReal) (cw : Fin 32 → Fin 128 → EReal) (sc : Fin 32 → EReal) (k : Fin 32) : EReal :=
  sc k * (((∑ c : Fin 128, col c * col c) - two * ∑ c : Fin 128, cw k c * col c) + ∑ c : Fin 128, cw k c * cw k c)

/-- The largest scaled distance over the 32 codewords (a fold of `max` from `-∞`). -/
def top (col : Fin 128 → EReal) (cw : Fin 32 → Fin 128 → EReal) (sc : Fin 32 → EReal) : EReal :=
  (Finset.univ : Finset (Fin 32)).fold max negInf (scaled col cw sc)

/-- The unnormalized softmax weight of codeword `k`. -/
def expw (col : Fin 128 → EReal) (cw : Fin 32 → Fin 128 → EReal) (sc : Fin 32 → EReal) (k : Fin 32) : EReal :=
  Ideal.exp (scaled col cw sc k - top col cw sc)

/-- The softmax weight of codeword `k` at one position. -/
def weight (col : Fin 128 → EReal) (cw : Fin 32 → Fin 128 → EReal) (sc : Fin 32 → EReal) (k : Fin 32) : EReal :=
  Ideal.div (expw col cw sc k) (∑ k' : Fin 32, expw col cw sc k')

/-- The encoding, over curried coordinates. -/
def encode (X : Fin 32 → Fin 128 → Fin 16384 → EReal) (cw : Fin 32 → Fin 128 → EReal) (sc : Fin 32 → EReal)
    (b : Fin 32) (k : Fin 32) (c : Fin 128) : EReal :=
  (∑ n : Fin 16384, weight (fun c' => X b c' n) cw sc k * X b c n)
    - (∑ n : Fin 16384, weight (fun c' => X b c' n) cw sc k) * cw k c

/-- The encoding as an array function: `X3` is the input viewed `[32, 128, 16384]` (the two spatial axes merged),
    `CW` the `[32, 128]` codewords, `SC` the 32 scales. -/
def G (X3 : (⟨3, ![32, 128, 16384]⟩ : Shape).Idx → EReal) (CW : (⟨2, ![32, 128]⟩ : Shape).Idx → EReal)
    (SC : (⟨1, ![32]⟩ : Shape).Idx → EReal) : (⟨3, ![32, 32, 128]⟩ : Shape).Idx → EReal := fun i =>
  encode (fun b c n => X3 (ix3 b c n)) (fun k c => CW (ix2 k c)) (fun k => SC (ix1 k)) (i 0) (i 1) (i 2)

/-- Position `j` of the lower half of the 16384 positions. -/
abbrev lo (j : Fin 8192) : Fin 16384 := ⟨j.val, by have := j.isLt; omega⟩
/-- Position `j` of the upper half. -/
abbrev hi (j : Fin 8192) : Fin 16384 := ⟨8192 + j.val, by have := j.isLt; omega⟩

/-- A sum over the 16384 positions, accumulated half by half from zero. -/
theorem sum_halves {M : Type*} [AddCommMonoid M] (f : Fin 16384 → M) :
    (0 + ∑ j : Fin 8192, f (lo j)) + ∑ j : Fin 8192, f (hi j) = ∑ n : Fin 16384, f n := by
  rw [zero_add]
  exact (Fin.sum_univ_add (a := 8192) (b := 8192) (fun n : Fin (8192 + 8192) => f n)).symm

end Cert.SoftAssign

end
-- ==== Proof.TileOps.lean ====
/-
  The kernel body's non-pointwise operations read at coordinates, at the extended reals.

  One tile of the kernel is a `[128, 8192]` slab `x` (channels by positions) beside the `[32, 128]` codewords. Each
  lemma below says what one operation of the body gives at explicit coordinates: a sum over the 128 channels, a sum or
  a maximum over the 32 codewords, a sum over the tile's 8192 positions, the two matrix products as plain sums of
  products, and the keep-dims reshapes and broadcasts that only move a coordinate.
-/
import proofs.«131181_j20890720928159_2_alg».proof.Proof.Gen.KernelIdeal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.TileOps

open Cert.KernelIdeal Cert.KernelIdeal.Gen Idealize.ShloMosaic Idealize.ShloMosaic.ValueIdx

/-! ## Keep-dims layout: a column `[a]` viewed `[a, 1]`, and a column broadcast along the rows -/

/-- A vector of `a` entries viewed as a column `[a, 1]` reads, at `(i, u)`, entry `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The index a reduction puts back -/

/-- Reducing the rows of `[m, n]`: column `t` with row `k` put back is `(k, t)`. -/
theorem lift_rows {m n : ℕ} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl

/-- Reducing the columns of `[m, n]`: row `t` with column `k` put back is `(t, k)`. -/
theorem lift_cols {m n : ℕ} (h : (⟨2, ![m, n]⟩ : Shape).Reduces [1] (⟨1, ![m]⟩ : Shape)) (t : Fin m)
    (k : Fin ((⟨2, ![m, n]⟩ : Shape).size 1)) : h.lift (ix1 t) k = ix2 t (⟨k.val, k.isLt⟩ : Fin n) := by
  funext c; apply Fin.ext
  fin_cases c <;> rfl

/-! ## The body's reductions, as printed, at coordinates -/

/-- The sum over the 128 channels of a `[128, 8192]` slab, at position `j`. -/
theorem sum_channels_apply (v : FVec Ideal S128x8192 .f32) (hφ : FTy.f32 = FTy.f32 ∨ FTy.f32 = FTy.bf16)
    (hacc : (0x00000000#32 : BitVec 32) = 0x00000000#32) (j : Fin 8192) :
    multiReduction .add [0] S8192 v 0x00000000#32 reduces_S128x8192_S8192 hφ hacc (ix1 j)
      = ∑ c : Fin 128, v (ix2 c j) := by
  refine (Ideal.multiReduction_add_single v 0x00000000#32 reduces_S128x8192_S8192 hφ hacc (ix1 j)).trans ?_
  exact Finset.sum_congr rfl fun c _ => congrArg v (lift_rows reduces_S128x8192_S8192 j c)

/-- The sum over the 128 channels of a `[32, 128]` codeword array, at codeword `k`. -/
theorem sum_codeword_apply (v : FVec Ideal S32x128 .f32) (hφ : FTy.f32 = FTy.f32 ∨ FTy.f32 = FTy.bf16)
    (hacc : (0x00000000#32 : BitVec 32) = 0x00000000#32) (k : Fin 32) :
    multiReduction .add [1] S32 v 0x00000000#32 reduces_S32x128_S32 hφ hacc (ix1 k)
      = ∑ c : Fin 128, v (ix2 k c) := by
  refine (Ideal.multiReduction_add_single v 0x00000000#32 reduces_S32x128_S32 hφ hacc (ix1 k)).trans ?_
  exact Finset.sum_congr rfl fun c _ => congrArg v (lift_cols reduces_S32x128_S32 k c)

/-- The sum over the 32 codewords of a `[32, 8192]` array, at position `j`. -/
theorem sum_codes_apply (v : FVec Ideal S32x8192 .f32) (hφ : FTy.f32 = FTy.f32 ∨ FTy.f32 = FTy.bf16)
    (hacc : (0x00000000#32 : BitVec 32) = 0x00000000#32) (j : Fin 8192) :
    multiReduction .add [0] S8192 v 0x00000000#32 reduces_S32x8192_S8192 hφ hacc (ix1 j)
      = ∑ k : Fin 32, v (ix2 k j) := by
  refine (Ideal.multiReduction_add_single v 0x00000000#32 reduces_S32x8192_S8192 hφ hacc (ix1 j)).trans ?_
  exact Finset.sum_congr rfl fun k _ => congrArg v (lift_rows reduces_S32x8192_S8192 j k)

/-- The maximum over the 32 codewords of a `[32, 8192]` array, at position `j`: a fold of `max` from `-∞`. -/
theorem max_codes_apply (v : FVec Ideal S32x8192 .f32) (hφ : FTy.f32 = FTy.f32 ∨ FTy.f32 = FTy.bf16)
    (hacc : (0xFF800000#32 : BitVec 32) = 0xFF800000#32) (j : Fin 8192) :
    multiReduction .maximumf [0] S8192 v 0xFF800000#32 reduces_S32x8192_S8192 hφ hacc (ix1 j)
      = (Finset.univ : Finset (Fin 32)).fold max (Ideal.ofBits .f32 0xFF800000#32) (fun k => v (ix2 k j)) := by
  refine (Ideal.multiReduction_maximumf_single v 0xFF800000#32 reduces_S32x8192_S8192 hφ hacc (ix1 j)).trans ?_
  have hf : (v ∘ reduces_S32x8192_S8192.lift (ix1 j)) = fun k : Fin 32 => v (ix2 k j) :=
    funext fun k => congrArg v (lift_rows reduces_S32x8192_S8192 j k)
  exact congrArg (fun f => Finset.fold max (Ideal.ofBits .f32 0xFF800000#32) f (Finset.univ : Finset (Fin 32))) hf

/-- The sum over the tile's 8192 positions of a `[32, 8192]` array, at codeword `k`. -/
theorem sum_positions_apply (v : FVec Ideal S32x8192 .f32) (hφ : FTy.f32 = FTy.f32 ∨ FTy.f32 = FTy.bf16)
    (hacc : (0x00000000#32 : BitVec 32) = 0x00000000#32) (k : Fin 32) :
    multiReduction .add [1] S32 v 0x00000000#32 reduces_S32x8192_S32 hφ hacc (ix1 k)
      = ∑ j : Fin 8192, v (ix2 k j) := by
  refine (Ideal.multiReduction_add_single v 0x00000000#32 reduces_S32x8192_S32 hφ hacc (ix1 k)).trans ?_
  exact Finset.sum_congr rfl fun j _ => congrArg v (lift_cols reduces_S32x8192_S32 k j)

/-! ## The body's two matrix products, as printed, at coordinates -/

theorem cross_lhs0 (i : S32x8192.Idx) (q : dot_S32x128_S128x8192_S32x8192_1_0_0_1_n_n.contr.Idx) : (dot_S32x128_S128x8192_S32x8192_1_0_0_1_n_n.lhsIdx i q 0).val = (i 0).val := by
  unfold DotDims.lhsIdx
  rw [dif_neg (show ¬(0 : Fin S32x128.rank) ∈ dot_S32x128_S128x8192_S32x8192_1_0_0_1_n_n.lhsBatch by decide), dif_pos (show (0 : Fin S32x128.rank) ∈ dot_S32x128_S128x8192_S32x8192_1_0_0_1_n_n.lhsNonContracting by decide)]
  rfl
theorem cross_lhs1 (i : S32x8192.Idx) (q : dot_S32x128_S128x8192_S32x8192_1_0_0_1_n_n.contr.Idx) : (dot_S32x128_S128x8192_S32x8192_1_0_0_1_n_n.lhsIdx i q 1).val = (q ⟨0, by decide⟩).val :=
  dot_S32x128_S128x8192_S32x8192_1_0_0_1_n_n.lhsIdx_val_of_single rfl i q
theorem cross_rhs0 (i : S32x8192.Idx) (q : dot_S32x128_S128x8192_S32x8192_1_0_0_1_n_n.contr.Idx) : (dot_S32x128_S128x8192_S32x8192_1_0_0_1_n_n.rhsIdx i q 0).val = (q ⟨0, by decide⟩).val :=
  dot_S32x128_S128x8192_S32x8192_1_0_0_1_n_n.rhsIdx_val_of_single rfl i q
theorem cross_rhs1 (i : S32x8192.Idx) (q : dot_S32x128_S128x8192_S32x8192_1_0_0_1_n_n.contr.Idx) : (dot_S32x128_S128x8192_S32x8192_1_0_0_1_n_n.rhsIdx i q 1).val = (i 1).val := by
  unfold DotDims.rhsIdx
  rw [dif_neg (show ¬(1 : Fin S128x8192.rank) ∈ dot_S32x128_S128x8192_S32x8192_1_0_0_1_n_n.rhsBatch by decide), dif_pos (show (1 : Fin S128x8192.rank) ∈ dot_S32x128_S128x8192_S32x8192_1_0_0_1_n_n.rhsNonContracting by decide)]
  rfl

/-- The cross term of the distances: codewords `[32, 128]` times the slab `[128, 8192]` into a zero start, at
    `(k, j)`, is the sum over the channels of the products. -/
theorem cross_apply (l : FVec Ideal S32x128 .bf16) (r : FVec Ideal S128x8192 .bf16) (k : Fin 32) (j : Fin 8192) :
    matmul dot_S32x128_S128x8192_S32x8192_1_0_0_1_n_n none l r (constant (F := Ideal) S32x8192 .f32 0x00000000#32) (ix2 k j)
      = ∑ c : Fin 128, l (ix2 k c) * r (ix2 c j) := by
  simp only [matmul]
  rw [Ideal.matmul_constant_zero_apply, ← Equiv.sum_comp (contrEquiv1 dot_S32x128_S128x8192_S32x8192_1_0_0_1_n_n 128 rfl rfl).symm]
  refine Finset.sum_congr rfl fun c _ => ?_
  have hc := contrEquiv1_symm_val dot_S32x128_S128x8192_S32x8192_1_0_0_1_n_n 128 rfl rfl c
  have el : dot_S32x128_S128x8192_S32x8192_1_0_0_1_n_n.lhsIdx (ix2 k j) ((contrEquiv1 dot_S32x128_S128x8192_S32x8192_1_0_0_1_n_n 128 rfl rfl).symm c) = ix2 k c := funext fun a => Fin.ext (by
    match a with
    | ⟨0, _⟩ => exact cross_lhs0 _ _
    | ⟨1, _⟩ => exact (cross_lhs1 _ _).trans hc)
  have er : dot_S32x128_S128x8192_S32x8192_1_0_0_1_n_n.rhsIdx (ix2 k j) ((contrEquiv1 dot_S32x128_S128x8192_S32x8192_1_0_0_1_n_n 128 rfl rfl).symm c) = ix2 c j := funext fun a => Fin.ext (by
    match a with
    | ⟨0, _⟩ => exact (cross_rhs0 _ _).trans hc
    | ⟨1, _⟩ => exact cross_rhs1 _ _)
  rw [el, er]

theorem agg_lhs0 (i : S32x128.Idx) (q : dot_S32x8192_S128x8192_S32x128_1_1_0_0_n_n.contr.Idx) : (dot_S32x8192_S128x8192_S32x128_1_1_0_0_n_n.lhsIdx i q 0).val = (i 0).val := by
  unfold DotDims.lhsIdx
  rw [dif_neg (show ¬(0 : Fin S32x8192.rank) ∈ dot_S32x8192_S128x8192_S32x128_1_1_0_0_n_n.lhsBatch by decide), dif_pos (show (0 : Fin S32x8192.rank) ∈ dot_S32x8192_S128x8192_S32x128_1_1_0_0_n_n.lhsNonContracting by decide)]
  rfl
theorem agg_lhs1 (i : S32x128.Idx) (q : dot_S32x8192_S128x8192_S32x128_1_1_0_0_n_n.contr.Idx) : (dot_S32x8192_S128x8192_S32x128_1_1_0_0_n_n.lhsIdx i q 1).val = (q ⟨0, by decide⟩).val :=
  dot_S32x8192_S128x8192_S32x128_1_1_0_0_n_n.lhsIdx_val_of_single rfl i q
theorem agg_rhs0 (i : S32x128.Idx) (q : dot_S32x8192_S128x8192_S32x128_1_1_0_0_n_n.contr.Idx) : (dot_S32x8192_S128x8192_S32x128_1_1_0_0_n_n.rhsIdx i q 0).val = (i 1).val := by
  unfold DotDims.rhsIdx
  rw [dif_neg (show ¬(0 : Fin S128x8192.rank) ∈ dot_S32x8192_S128x8192_S32x128_1_1_0_0_n_n.rhsBatch by decide), dif_pos (show (0 : Fin S128x8192.rank) ∈ dot_S32x8192_S128x8192_S32x128_1_1_0_0_n_n.rhsNonContracting by decide)]
  rfl
theorem agg_rhs1 (i : S32x128.Idx) (q : dot_S32x8192_S128x8192_S32x128_1_1_0_0_n_n.contr.Idx) : (dot_S32x8192_S128x8192_S32x128_1_1_0_0_n_n.rhsIdx i q 1).val = (q ⟨0, by decide⟩).val :=
  dot_S32x8192_S128x8192_S32x128_1_1_0_0_n_n.rhsIdx_val_of_single rfl i q

/-- The aggregation: weights `[32, 8192]` against the slab `[128, 8192]`, contracting the positions, into a zero
    start, at `(k, c)`, is the sum over the tile's positions of the products. -/
theorem agg_apply (l : FVec Ideal S32x8192 .bf16) (r : FVec Ideal S128x8192 .bf16) (k : Fin 32) (c : Fin 128) :
    matmul dot_S32x8192_S128x8192_S32x128_1_1_0_0_n_n none l r (constant (F := Ideal) S32x128 .f32 0x00000000#32) (ix2 k c)
      = ∑ j : Fin 8192, l (ix2 k j) * r (ix2 c j) := by
  simp only [matmul]
  rw [Ideal.matmul_constant_zero_apply, ← Equiv.sum_comp (contrEquiv1 dot_S32x8192_S128x8192_S32x128_1_1_0_0_n_n 8192 rfl rfl).symm]
  refine Finset.sum_congr rfl fun j _ => ?_
  have hj := contrEquiv1_symm_val dot_S32x8192_S128x8192_S32x128_1_1_0_0_n_n 8192 rfl rfl j
  have el : dot_S32x8192_S128x8192_S32x128_1_1_0_0_n_n.lhsIdx (ix2 k c) ((contrEquiv1 dot_S32x8192_S128x8192_S32x128_1_1_0_0_n_n 8192 rfl rfl).symm j) = ix2 k j := funext fun a => Fin.ext (by
    match a with
    | ⟨0, _⟩ => exact agg_lhs0 _ _
    | ⟨1, _⟩ => exact (agg_lhs1 _ _).trans hj)
  have er : dot_S32x8192_S128x8192_S32x128_1_1_0_0_n_n.rhsIdx (ix2 k c) ((contrEquiv1 dot_S32x8192_S128x8192_S32x128_1_1_0_0_n_n 8192 rfl rfl).symm j) = ix2 c j := funext fun a => Fin.ext (by
    match a with
    | ⟨0, _⟩ => exact agg_rhs0 _ _
    | ⟨1, _⟩ => exact (agg_rhs1 _ _).trans hj)
  rw [el, er]

end Cert.KernelIdeal.TileOps

end
-- ==== Proof.Tile.lean ====
/-
  What the kernel body computes on one tile, read at coordinates on the extended reals.

  A tile is a `[1, 128, 8192]` slab `x` of one batch entry (128 channels by 8192 positions), beside the whole
  `[32, 128]` codewords `w` and the `[32, 1]` column of scales `s`. The body computes, for every position `j` of
  the tile, the softmax weights of the 32 codewords from the column `x[·, j]` — exactly `SoftAssign.weight` of that
  column —, then the two per-tile sums over the positions: `Σ_j weight_j k · x[c, j]` and `Σ_j weight_j k`. These
  are added into two running sums (started from zero on a batch entry's first tile), and on the last tile the output
  is `running₁[k, c] − running₂[k] · w[k, c]`. A change of float format is the identity here, so the rounding of the
  matrix products' operands does not appear.
-/
import proofs.«131181_j20890720928159_2_alg».proof.Proof.Gen.KernelIdeal.Skeleton
import proofs.«131181_j20890720928159_2_alg».proof.Proof.Spec
import proofs.«131181_j20890720928159_2_alg».proof.Proof.TileOps

noncomputable section

namespace Cert.KernelIdeal.Tile

open Cert.KernelIdeal Cert.KernelIdeal.Gen Cert.KernelIdeal.TileOps Idealize.ShloMosaic Idealize.ShloMosaic.ValueIdx
open Cert.SoftAssign

/-- The exponential of a vector at an index. -/
theorem exp_apply {s : Shape} {φ : FTy} (a : FVec Ideal s φ) (i : s.Idx) : exp a i = Ideal.exp (a i) := rfl

/-- The slab viewed `[128, 8192]`: entry `(c, j)` is the slab's `(0, c, j)`. -/
theorem slab_apply (x : Vec Ideal S1x128x8192 .f32) (c : Fin 128) (j : Fin 8192) :
    k0_pay6 x (ix2 c j) = x (ix3 (0 : Fin 1) c j) := by
  unfold k0_pay6
  exact shapeCast_1ab_ab_apply x shapeCasts_S1x128x8192_S128x8192 c j

/-- The same after the change of format into the matrix unit's operand: the identity on the extended reals. -/
theorem slab16_apply (x : Vec Ideal S1x128x8192 .f32) (c : Fin 128) (j : Fin 8192) :
    k0_pay7 x (ix2 c j) = x (ix3 (0 : Fin 1) c j) := by
  unfold k0_pay7
  exact slab_apply x c j

/-- THE WEIGHTS OF A TILE: at codeword `k` and position `j` the body's quotient is the softmax weight of the
    column `x[·, j]` against the codewords and scales. -/
theorem weights_apply (x : Vec Ideal S1x128x8192 .f32) (w : Vec Ideal S32x128 .f32) (s : Vec Ideal S32x1 .f32)
    (k : Fin 32) (j : Fin 8192) :
    k0_pay8 x w s (ix2 k j)
      = weight (fun c => x (ix3 (0 : Fin 1) c j)) (fun k' c => w (ix2 k' c)) (fun k' => s (ix2 k' (0 : Fin 1))) k := by
  unfold k0_pay8
  simp only [divf_apply, exp_apply, subf_apply, addf_apply, mulf_apply, truncf_apply, broadcast_apply,
    broadcastTo_1b_ab_apply, broadcastTo_a1_ab_apply, shapeCast_a_1a_apply, shapeCast_a_a1_apply, shapeCast_self,
    max_codes_apply _ (Or.inl rfl) rfl, sum_codes_apply _ (Or.inl rfl) rfl, sum_channels_apply _ (Or.inl rfl) rfl,
    sum_codeword_apply _ (Or.inl rfl) rfl, cross_apply, slab_apply, slab16_apply]
  rfl

/-- THE TILE'S WEIGHTED SUM OF THE SLAB: at codeword `k` and channel `c`, the sum over the tile's positions of the
    weight times the slab's entry. -/
theorem wsum_slab_apply (x : Vec Ideal S1x128x8192 .f32) (w : Vec Ideal S32x128 .f32) (s : Vec Ideal S32x1 .f32)
    (k : Fin 32) (c : Fin 128) :
    k0_pay9 x w s (ix2 k c) = ∑ j : Fin 8192, k0_pay8 x w s (ix2 k j) * x (ix3 (0 : Fin 1) c j) := by
  unfold k0_pay9
  refine (agg_apply _ _ k c).trans ?_
  refine Finset.sum_congr rfl fun j _ => ?_
  show k0_pay8 x w s (ix2 k j) * k0_pay7 x (ix2 c j) = _
  rw [slab16_apply]

/-- THE TILE'S SUM OF THE WEIGHTS, kept as a column: at codeword `k`, the sum over the tile's positions. -/
theorem wsum_apply (x : Vec Ideal S1x128x8192 .f32) (w : Vec Ideal S32x128 .f32) (s : Vec Ideal S32x1 .f32)
    (k : Fin 32) (u : Fin 1) :
    k0_pay10 x w s (ix2 k u) = ∑ j : Fin 8192, k0_pay8 x w s (ix2 k j) := by
  unfold k0_pay10
  refine (shapeCast_a_a1_apply _ shapeCasts_S32_S32x1 k u).trans ?_
  exact sum_positions_apply _ (Or.inl rfl) rfl k

/-- Adding a tile's contribution `t` into a running sum `acc`: `acc + t`. -/
theorem add_sum_apply (t : FVec Ideal S32x128 .f32) (acc : Vec Ideal S32x128 .f32) (i : S32x128.Idx) :
    k0_pay1 t acc i = acc i + t i := by
  unfold k0_pay1
  rw [shapeCast_self]
  rfl

theorem add_wsum_apply (t : FVec Ideal S32x1 .f32) (acc : Vec Ideal S32x1 .f32) (i : S32x1.Idx) :
    k0_pay2 t acc i = acc i + t i := by
  unfold k0_pay2
  rw [shapeCast_self]
  rfl

/-- The running sums start from zero. -/
theorem zero_sum_apply (i : S32x128.Idx) : k0_pay4 (F := Ideal) i = 0 := by
  unfold k0_pay4
  rw [shapeCast_self]
  exact Ideal.ofBits_zero_f32

theorem zero_wsum_apply (i : S32x1.Idx) : k0_pay5 (F := Ideal) i = 0 := by
  unfold k0_pay5
  rw [shapeCast_self]
  exact Ideal.ofBits_zero_f32

/-- The finishing step at `(k, c)`: the first running sum minus the second (a column) times the codeword. -/
theorem finish_apply (a : Vec Ideal S32x128 .f32) (b : Vec Ideal S32x1 .f32) (w : Vec Ideal S32x128 .f32)
    (u : Fin 1) (k : Fin 32) (c : Fin 128) :
    k0_pay3 a b w (ix3 u k c) = a (ix2 k c) - b (ix2 k (0 : Fin 1)) * w (ix2 k c) := by
  unfold k0_pay3
  refine (shapeCast_ab_1ab_apply _ shapeCasts_S32x128_S1x32x128 u k c).trans ?_
  simp only [subf_apply, mulf_apply, broadcastTo_a1_ab_apply]

/-- ONE BATCH ENTRY, BOTH TILES. If the first tile `xA` holds the lower 8192 positions of a `[128, 16384]` array
    `X` and the second tile `xB` the upper 8192, then what the body leaves in the output block after the second
    tile — the finishing step of the two running sums, each `(0 + first tile's) + second tile's` — is the encoding of
    `X` at every `(k, c)`: the two half sums join into the sum over all 16384 positions. -/
theorem entry_apply (xA xB : Vec Ideal S1x128x8192 .f32) (w : Vec Ideal S32x128 .f32) (s : Vec Ideal S32x1 .f32)
    (X : Fin 128 → Fin 16384 → EReal)
    (hA : ∀ (c : Fin 128) (j : Fin 8192), xA (ix3 (0 : Fin 1) c j) = X c (lo j))
    (hB : ∀ (c : Fin 128) (j : Fin 8192), xB (ix3 (0 : Fin 1) c j) = X c (hi j))
    (u : Fin 1) (k : Fin 32) (c : Fin 128) :
    k0_pay3 (k0_pay1 (k0_pay9 xB w s) (k0_pay1 (k0_pay9 xA w s) (k0_pay4 (F := Ideal))))
        (k0_pay2 (k0_pay10 xB w s) (k0_pay2 (k0_pay10 xA w s) (k0_pay5 (F := Ideal)))) w (ix3 u k c)
      = (∑ n : Fin 16384, weight (fun c' => X c' n) (fun k' c' => w (ix2 k' c')) (fun k' => s (ix2 k' (0 : Fin 1))) k * X c n)
        - (∑ n : Fin 16384, weight (fun c' => X c' n) (fun k' c' => w (ix2 k' c')) (fun k' => s (ix2 k' (0 : Fin 1))) k)
          * w (ix2 k c) := by
  have e1 := sum_halves (fun n => weight (fun c' => X c' n) (fun k' c' => w (ix2 k' c')) (fun k' => s (ix2 k' (0 : Fin 1))) k * X c n)
  have e2 := sum_halves (fun n => weight (fun c' => X c' n) (fun k' c' => w (ix2 k' c')) (fun k' => s (ix2 k' (0 : Fin 1))) k)
  rw [← e1, ← e2]
  simp only [finish_apply, add_sum_apply, add_wsum_apply, zero_sum_apply, zero_wsum_apply, wsum_slab_apply, wsum_apply,
    weights_apply, hA, hB]

end Cert.KernelIdeal.Tile

end
-- ==== Proof.Pieces.lean ====
/-
  What one run of the kernel body leaves in its two running sums and in the output block, as pure terms of what it
  read — for every float instance.

  The body has two control cases. On the FIRST tile of a batch entry it zeroes both running sums, reads them back,
  and adds the tile's two sums to them; it stores nothing into the output block. On the LAST tile it adds the tile's
  two sums to what the first tile left, and then stores `running₁ − running₂ · codewords` into the output block,
  reading the running sums back after its own stores. Every load and store of the body goes through a whole buffer,
  so each buffer ends at the payload of its last store, and a read-back of a buffer just stored is that store's
  payload.
-/
import proofs.«131181_j20890720928159_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.Tactic
open Idealize.SL.Sem

variable {F : FTy → Type} [FloatOps F]

/-- The zero offsets of a rank-2 and of a rank-3 whole-buffer rectangle. -/
theorem zero2 : (![0, 0] : Fin 2 → Nat) = fun _ => 0 := funext fun a => by fin_cases a <;> rfl
theorem zero3 : (![0, 0, 0] : Fin 3 → Nat) = fun _ => 0 := funext fun a => by fin_cases a <;> rfl

/-- LAST TILE, first running sum: what the tile before left (`xs0`) plus this tile's weighted sum of the slab. -/
theorem last_sum (c : Dev nD) (i : grid0.Coords) (arg2 : Memref sig .tc .vmem S1x128x8192 .f32) (harg2 : arg2.IsWhole) (arg3 : Memref sig .tc .vmem S32x128 .f32) (harg3 : arg3.IsWhole) (arg4 : Memref sig .tc .vmem S32x1 .f32) (harg4 : arg4.IsWhole) (arg5 : Memref sig .tc .vmem S1x32x128 .f32) (harg5 : arg5.IsWhole) (arg6 : Memref sig .tc .vmem S32x128 .f32) (harg6 : arg6.IsWhole) (arg7 : Memref sig .tc .vmem S32x1 .f32) (harg7 : arg7.IsWhole) (hc0 : ¬cond0_0 i) (hc1 : cond0_1 i)
    (x0 : Vec F S1x128x8192 .f32) (x1 : Vec F S32x128 .f32) (x2 : Vec F S32x1 .f32) (xs0 : Vec F S32x128 .f32) (xs1 : Vec F S32x1 .f32) :
    sout0_B_0 c i arg2 harg2 arg3 harg3 arg4 harg4 arg5 harg5 arg6 harg6 arg7 harg7 hc0 hc1 x0 x1 x2 xs0 xs1 = k0_pay1 (k0_pay9 x0 x1 x2) xs0 := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  sl_unfold_words
  rw [View.canon_unit_zero (S := S32x128) zero2]
  simp only [View.readAt_eq_ld, harg2.read_unread, harg3.read_unread, harg4.read_unread, harg6.read_unread,
    harg7.read_unread, View.ld_unit_zero (S := S1x128x8192) zero3, View.ld_unit_zero (S := S32x128) zero2,
    View.ld_unit_zero (S := S32x1) zero2]

/-- LAST TILE, second running sum: what the tile before left (`xs1`) plus this tile's sum of the weights. -/
theorem last_wsum (c : Dev nD) (i : grid0.Coords) (arg2 : Memref sig .tc .vmem S1x128x8192 .f32) (harg2 : arg2.IsWhole) (arg3 : Memref sig .tc .vmem S32x128 .f32) (harg3 : arg3.IsWhole) (arg4 : Memref sig .tc .vmem S32x1 .f32) (harg4 : arg4.IsWhole) (arg5 : Memref sig .tc .vmem S1x32x128 .f32) (harg5 : arg5.IsWhole) (arg6 : Memref sig .tc .vmem S32x128 .f32) (harg6 : arg6.IsWhole) (arg7 : Memref sig .tc .vmem S32x1 .f32) (harg7 : arg7.IsWhole) (hc0 : ¬cond0_0 i) (hc1 : cond0_1 i)
    (x0 : Vec F S1x128x8192 .f32) (x1 : Vec F S32x128 .f32) (x2 : Vec F S32x1 .f32) (xs0 : Vec F S32x128 .f32) (xs1 : Vec F S32x1 .f32) :
    sout0_B_1 c i arg2 harg2 arg3 harg3 arg4 harg4 arg5 harg5 arg6 harg6 arg7 harg7 hc0 hc1 x0 x1 x2 xs0 xs1 = k0_pay2 (k0_pay10 x0 x1 x2) xs1 := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  sl_unfold_words
  rw [View.canon_unit_zero (S := S32x1) zero2]
  simp only [View.readAt_eq_ld, harg2.read_unread, harg3.read_unread, harg4.read_unread, harg6.read_unread,
    harg7.read_unread, View.ld_unit_zero (S := S1x128x8192) zero3, View.ld_unit_zero (S := S32x128) zero2,
    View.ld_unit_zero (S := S32x1) zero2]

/-- LAST TILE, the output block: the finishing payload of the two running sums as this tile leaves them, and the
    codewords. -/
theorem last_out (c : Dev nD) (i : grid0.Coords) (arg2 : Memref sig .tc .vmem S1x128x8192 .f32) (harg2 : arg2.IsWhole) (arg3 : Memref sig .tc .vmem S32x128 .f32) (harg3 : arg3.IsWhole) (arg4 : Memref sig .tc .vmem S32x1 .f32) (harg4 : arg4.IsWhole) (arg5 : Memref sig .tc .vmem S1x32x128 .f32) (harg5 : arg5.IsWhole) (arg6 : Memref sig .tc .vmem S32x128 .f32) (harg6 : arg6.IsWhole) (arg7 : Memref sig .tc .vmem S32x1 .f32) (harg7 : arg7.IsWhole) (hc0 : ¬cond0_0 i) (hc1 : cond0_1 i)
    (x0 : Vec F S1x128x8192 .f32) (x1 : Vec F S32x128 .f32) (x2 : Vec F S32x1 .f32) (xs0 : Vec F S32x128 .f32) (xs1 : Vec F S32x1 .f32) :
    out0_B_3 c i arg2 harg2 arg3 harg3 arg4 harg4 arg5 harg5 arg6 harg6 arg7 harg7 hc0 hc1 x0 x1 x2 xs0 xs1
      = k0_pay3 (k0_pay1 (k0_pay9 x0 x1 x2) xs0) (k0_pay2 (k0_pay10 x0 x1 x2) xs1) x1 := by
  unfold out0_B_3
  rw [View.read_writes_eq_canon _ _ _ (cover0_B_3 c i arg2 harg2 arg3 harg3 arg4 harg4 arg5 harg5 arg6 harg6 arg7 harg7 hc0 hc1 x0 x1 x2 xs0 xs1)]
  unfold kernelRun0_B
  dsimp only
  sl_unfold_words
  rw [View.canon_unit_zero (S := S1x32x128) zero3, View.readCov_unit_zero (S := S32x128) _ zero2,
    View.readCov_unit_zero (S := S32x1) _ zero2]
  simp only [View.readAt_eq_ld, harg2.read_unread, harg3.read_unread, harg4.read_unread, harg6.read_unread,
    harg7.read_unread, View.ld_unit_zero (S := S1x128x8192) zero3, View.ld_unit_zero (S := S32x128) zero2,
    View.ld_unit_zero (S := S32x1) zero2]

/-- FIRST TILE, first running sum: zero plus this tile's weighted sum of the slab. -/
theorem first_sum (c : Dev nD) (i : grid0.Coords) (arg2 : Memref sig .tc .vmem S1x128x8192 .f32) (harg2 : arg2.IsWhole) (arg3 : Memref sig .tc .vmem S32x128 .f32) (harg3 : arg3.IsWhole) (arg4 : Memref sig .tc .vmem S32x1 .f32) (harg4 : arg4.IsWhole) (arg5 : Memref sig .tc .vmem S1x32x128 .f32) (harg5 : arg5.IsWhole) (arg6 : Memref sig .tc .vmem S32x128 .f32) (harg6 : arg6.IsWhole) (arg7 : Memref sig .tc .vmem S32x1 .f32) (harg7 : arg7.IsWhole) (hc0 : cond0_0 i) (hc1 : ¬cond0_1 i)
    (x0 : Vec F S1x128x8192 .f32) (x1 : Vec F S32x128 .f32) (x2 : Vec F S32x1 .f32) :
    sout0_A_0 c i arg2 harg2 arg3 harg3 arg4 harg4 arg5 harg5 arg6 harg6 arg7 harg7 hc0 hc1 x0 x1 x2 = k0_pay1 (k0_pay9 x0 x1 x2) k0_pay4 := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S32x128) zero2, View.readCov_unit_zero (S := S32x128) _ zero2]
  simp only [View.readAt_eq_ld, harg2.read_unread, harg3.read_unread, harg4.read_unread, harg6.read_unread,
    harg7.read_unread, View.ld_unit_zero (S := S1x128x8192) zero3, View.ld_unit_zero (S := S32x128) zero2,
    View.ld_unit_zero (S := S32x1) zero2]

/-- FIRST TILE, second running sum: zero plus this tile's sum of the weights. -/
theorem first_wsum (c : Dev nD) (i : grid0.Coords) (arg2 : Memref sig .tc .vmem S1x128x8192 .f32) (harg2 : arg2.IsWhole) (arg3 : Memref sig .tc .vmem S32x128 .f32) (harg3 : arg3.IsWhole) (arg4 : Memref sig .tc .vmem S32x1 .f32) (harg4 : arg4.IsWhole) (arg5 : Memref sig .tc .vmem S1x32x128 .f32) (harg5 : arg5.IsWhole) (arg6 : Memref sig .tc .vmem S32x128 .f32) (harg6 : arg6.IsWhole) (arg7 : Memref sig .tc .vmem S32x1 .f32) (harg7 : arg7.IsWhole) (hc0 : cond0_0 i) (hc1 : ¬cond0_1 i)
    (x0 : Vec F S1x128x8192 .f32) (x1 : Vec F S32x128 .f32) (x2 : Vec F S32x1 .f32) :
    sout0_A_1 c i arg2 harg2 arg3 harg3 arg4 harg4 arg5 harg5 arg6 harg6 arg7 harg7 hc0 hc1 x0 x1 x2 = k0_pay2 (k0_pay10 x0 x1 x2) k0_pay5 := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  rw [View.canon_cons_unit_zero (S := S32x1) zero2, View.readCov_unit_zero (S := S32x1) _ zero2]
  simp only [View.readAt_eq_ld, harg2.read_unread, harg3.read_unread, harg4.read_unread, harg6.read_unread,
    harg7.read_unread, View.ld_unit_zero (S := S1x128x8192) zero3, View.ld_unit_zero (S := S32x128) zero2,
    View.ld_unit_zero (S := S32x1) zero2]

end Cert.KernelIdeal.Pieces

end
-- ==== Proof.KernelWhole.lean ====
/-
  The kernel's result array as ONE function of the argument arrays, on the extended reals.

  The grid has 64 points, two per batch entry: point `2b` stages the lower 8192 positions of batch entry `b` (all
  128 channels), point `2b + 1` the upper 8192; the codewords and the column of scales are staged whole at every
  point. The output block of batch entry `b` (a `[1, 32, 128]` slice of the result) is written back only after the
  odd point `2b + 1`, and holds the finishing step of the two running sums as the two points leave them. So block `b`
  of the result is the encoding of batch entry `b`, the 32 blocks tile the result, and the whole array is
  `SoftAssign.G` of the input viewed `[32, 128, 16384]`, the codewords and the scales.
-/
import proofs.«131181_j20890720928159_2_alg».proof.Proof.Gen.KernelIdeal.Value
import proofs.«131181_j20890720928159_2_alg».proof.Proof.Spec
import proofs.«131181_j20890720928159_2_alg».proof.Proof.Tile
import proofs.«131181_j20890720928159_2_alg».proof.Proof.Pieces
import Idealize.ShloMosaic.PureOps.Ideal
import Idealize.ShloMosaic.Lib.StableHlo.Run
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)
open Cert.SoftAssign

variable (m : (ℓ : Loc nD τ sig) → Buf (Elt Ideal) ℓ) (ρ : Dev nD → PrngReg)

/-! ## Where each point's blocks sit -/

/-- The slab's block index at point `t`: batch entry `t / 2`, all channels, half `t % 2` of the positions. -/
theorem slab_index : ∀ t : Fin cfg0.N, win0_0.index t (0 : Fin 3) = t.val / 2 ∧ win0_0.index t (1 : Fin 3) = 0
    ∧ win0_0.index t (2 : Fin 3) = t.val % 2 :=
  (by decide +kernel : ∀ t : Fin grid0.N, _)

/-- The codewords and the scales are staged whole at every point. -/
theorem cw_index : ∀ t : Fin cfg0.N, win0_1.index t (0 : Fin 2) = 0 ∧ win0_1.index t (1 : Fin 2) = 0 :=
  (by decide +kernel : ∀ t : Fin grid0.N, _)
theorem sc_index : ∀ t : Fin cfg0.N, win0_2.index t (0 : Fin 2) = 0 ∧ win0_2.index t (1 : Fin 2) = 0 :=
  (by decide +kernel : ∀ t : Fin grid0.N, _)

/-- The output's block index at point `t`: batch entry `t / 2`, whole in the other two axes. -/
theorem out_index : ∀ t : Fin cfg0.N, win0_3.index t (0 : Fin 3) = t.val / 2 ∧ win0_3.index t (1 : Fin 3) = 0
    ∧ win0_3.index t (2 : Fin 3) = 0 :=
  (by decide +kernel : ∀ t : Fin grid0.N, _)

/-! ## The arrays the region finds, and the blocks read off them -/

/-- The input as the region finds it: the argument viewed `[32, 128, 16384]`. -/
abbrev merged (c : Dev nD) : S32x128x16384.Idx → EReal :=
  shapeCast S32x128x16384 (m ((c : Thread nD τ).loc main_arg0)) shapeCasts_S32x128x128x128_S32x128x16384

/-- The scales as the region finds them: the argument viewed as a column `[32, 1]`. -/
abbrev scaleCol (c : Dev nD) : S32x1.Idx → EReal :=
  shapeCast S32x1 (m ((c : Thread nD τ).loc main_arg2)) shapeCasts_S32_S32x1

theorem merged_read (c : Dev nD) : (V m c main_v0 : S32x128x16384.Idx → EReal) = merged m c := by
  dsimp only [Gen.V, Gen.hostOps0]; after_results; rfl

theorem scaleCol_read (c : Dev nD) : (V m c main_v1 : S32x1.Idx → EReal) = scaleCol m c := by
  dsimp only [Gen.V, Gen.hostOps0]; after_results; rfl

/-- An entry of the slab staged at point `t` is the entry of the merged input at batch entry `t / 2`, the same
    channel, and position `8192 · (t % 2)` plus the position inside the tile. -/
theorem slab_read (c : Dev nD) (t : Fin cfg0.N) (y : S1x128x8192.Idx) (i : S32x128x16384.Idx)
    (h0 : (i 0).val = t.val / 2) (h1 : (i 1).val = (y 1).val) (h2 : (i 2).val = 8192 * (t.val % 2) + (y 2).val) :
    iblk m c 0 t y = merged m c i := by
  have hi := slab_index t
  have hy : (y 0).val < 1 := (y 0).isLt
  rw [← merged_read]
  unfold iblk
  rw [View.read_apply]
  show V m c main_v0 _ = V m c main_v0 i
  refine congrArg (V m c main_v0) (funext fun a => Fin.ext ?_)
  match a with
  | ⟨0, _⟩ => show win0_0.index t (0 : Fin 3) * 1 + 1 * (y 0).val = (i 0).val; rw [hi.1, h0]; omega
  | ⟨1, _⟩ => show win0_0.index t (1 : Fin 3) * 128 + 1 * (y 1).val = (i 1).val; rw [hi.2.1, h1]; omega
  | ⟨2, _⟩ => show win0_0.index t (2 : Fin 3) * 8192 + 1 * (y 2).val = (i 2).val; rw [hi.2.2, h2]; omega

/-- The codewords staged at any point are the whole argument. -/
theorem cw_whole (c : Dev nD) (t : Fin cfg0.N) : (iblk m c 1 t : Vec Ideal S32x128 .f32) = (m ((c : Thread nD τ).loc main_arg1)) := by
  have hi := cw_index t
  funext y
  unfold iblk
  rw [View.read_apply]
  show V m c main_arg1 _ = m ((c : Thread nD τ).loc main_arg1) y
  rw [V_main_arg1]
  refine congrArg (m ((c : Thread nD τ).loc main_arg1)) (funext fun a => Fin.ext ?_)
  match a with
  | ⟨0, _⟩ => show win0_1.index t (0 : Fin 2) * 32 + 1 * (y 0).val = (y 0).val; rw [hi.1]; omega
  | ⟨1, _⟩ => show win0_1.index t (1 : Fin 2) * 128 + 1 * (y 1).val = (y 1).val; rw [hi.2]; omega

/-- The column of scales staged at any point is the whole column. -/
theorem sc_whole (c : Dev nD) (t : Fin cfg0.N) : (iblk m c 2 t : Vec Ideal S32x1 .f32) = scaleCol m c := by
  have hi := sc_index t
  rw [← scaleCol_read]
  funext y
  unfold iblk
  rw [View.read_apply]
  show V m c main_v1 _ = V m c main_v1 y
  refine congrArg (V m c main_v1) (funext fun a => Fin.ext ?_)
  match a with
  | ⟨0, _⟩ => show win0_2.index t (0 : Fin 2) * 32 + 1 * (y 0).val = (y 0).val; rw [hi.1]; omega
  | ⟨1, _⟩ => show win0_2.index t (1 : Fin 2) * 1 + 1 * (y 1).val = (y 1).val; rw [hi.2]; omega

/-! ## What the buffers hold after the two points of a batch entry -/

/-- After a batch entry's FIRST point the two running sums hold zero plus that tile's two sums. -/
theorem after_first (c : Dev nD) (t : Fin cfg0.N) (h0 : t.val % 2 = 0) (h1 : ¬t.val % 2 = 1) :
    (outsAt0 m c t.val t.isLt).2.1
        = k0_pay1 (k0_pay9 (iblk m c 0 t) (m ((c : Thread nD τ).loc main_arg1)) (scaleCol m c)) (k0_pay4 (F := Ideal))
    ∧ (outsAt0 m c t.val t.isLt).2.2
        = k0_pay2 (k0_pay10 (iblk m c 0 t) (m ((c : Thread nD τ).loc main_arg1)) (scaleCol m c)) (k0_pay5 (F := Ideal)) := by
  rw [outsAt0_A m c t h0 h1, ← cw_whole m c t, ← sc_whole m c t]
  exact ⟨Pieces.first_sum c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t),
    Pieces.first_wsum c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)⟩

/-- After a batch entry's LAST point the output block holds the finishing step of the two running sums: what the
    point before left, plus this tile's two sums. -/
theorem after_last (c : Dev nD) (t : Fin cfg0.N) (h0 : ¬t.val % 2 = 0) (h1 : t.val % 2 = 1) :
    (outsAt0 m c t.val t.isLt).1
      = k0_pay3
          (k0_pay1 (k0_pay9 (iblk m c 0 t) (m ((c : Thread nD τ).loc main_arg1)) (scaleCol m c))
            (outsAt0 m c (t.val - 1) (Nat.lt_of_le_of_lt (Nat.sub_le _ _) t.isLt)).2.1)
          (k0_pay2 (k0_pay10 (iblk m c 0 t) (m ((c : Thread nD τ).loc main_arg1)) (scaleCol m c))
            (outsAt0 m c (t.val - 1) (Nat.lt_of_le_of_lt (Nat.sub_le _ _) t.isLt)).2.2)
          (m ((c : Thread nD τ).loc main_arg1)) := by
  rw [outsAt0_B m c t h0 h1, ← cw_whole m c t, ← sc_whole m c t]
  exact Pieces.last_out c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) _ _

/-! ## Block `b` of the result is the encoding of batch entry `b` -/

/-- The result array: the encoding of the merged input, the codewords and the scales. -/
abbrev result (c : Dev nD) : Buf (Elt Ideal) ((c : Thread nD τ).loc main_v2) :=
  G (merged m c) (m ((c : Thread nD τ).loc main_arg1)) (m ((c : Thread nD τ).loc main_arg2))

/-- An entry `(u, k, c')` of the output block of point `t` sits at `(t / 2, k, c')` of the result. -/
theorem out_emb (t : Fin cfg0.N) (u : Fin 1) (k : Fin 32) (c' : Fin 128) (b : Fin 32) (hb : b.val = t.val / 2) :
    ((cfg0.win 3).blk t).view.emb (ix3 u k c') = ix3 b k c' := by
  obtain ⟨e0, e1, e2⟩ := out_index t
  funext a; apply Fin.ext
  match a with
  | ⟨0, _⟩ => show win0_3.index t (0 : Fin 3) * 1 + 1 * u.val = b.val; rw [e0, hb]; omega
  | ⟨1, _⟩ => show win0_3.index t (1 : Fin 3) * 32 + 1 * k.val = k.val; rw [e1]; omega
  | ⟨2, _⟩ => show win0_3.index t (2 : Fin 3) * 128 + 1 * c'.val = c'.val; rw [e2]; omega

/-- WHAT AN ODD POINT WRITES BACK is its block of the encoding: the point and the one before it hold the two halves
    of the positions of batch entry `t / 2`, and the two half sums join. -/
theorem flushed_eq (c : Dev nD) (t : Fin cfg0.N) (hf : (cfg0.win 3).flush t = true) :
    (dats m 0 c).flushed 3 t = ((cfg0.win 3).blk t).view.read (Elt Ideal) (result m c) := by
  have h1 : t.val % 2 = 1 := (flush0_3 t).mp hf
  have h0 : ¬t.val % 2 = 0 := by omega
  have hN : t.val < 64 := lt_of_lt_of_eq t.isLt (show cfg0.N = 64 from N_0)
  have hp : t.val - 1 < cfg0.N := Nat.lt_of_le_of_lt (Nat.sub_le _ _) t.isLt
  obtain ⟨eA, eB⟩ := after_first m c ⟨t.val - 1, hp⟩ (show (t.val - 1) % 2 = 0 by omega) (show ¬(t.val - 1) % 2 = 1 by omega)
  have hb : t.val / 2 < 32 := by omega
  rw [Value.flushed3, after_last m c t h0 h1]
  rw [show (outsAt0 m c (t.val - 1) (Nat.lt_of_le_of_lt (Nat.sub_le _ _) t.isLt)).2.1 = _ from eA,
    show (outsAt0 m c (t.val - 1) (Nat.lt_of_le_of_lt (Nat.sub_le _ _) t.isLt)).2.2 = _ from eB]
  funext y
  obtain ⟨u, k, c', rfl⟩ : ∃ (u : Fin 1) (k : Fin 32) (c' : Fin 128), y = ix3 u k c' := ⟨y 0, y 1, y 2, eq_ix3 y⟩
  show k0_pay3
      (k0_pay1 (k0_pay9 (iblk m c 0 t) (m ((c : Thread nD τ).loc main_arg1)) (scaleCol m c))
        (k0_pay1 (k0_pay9 (iblk m c 0 ⟨t.val - 1, hp⟩) (m ((c : Thread nD τ).loc main_arg1)) (scaleCol m c)) (k0_pay4 (F := Ideal))))
      (k0_pay2 (k0_pay10 (iblk m c 0 t) (m ((c : Thread nD τ).loc main_arg1)) (scaleCol m c))
        (k0_pay2 (k0_pay10 (iblk m c 0 ⟨t.val - 1, hp⟩) (m ((c : Thread nD τ).loc main_arg1)) (scaleCol m c)) (k0_pay5 (F := Ideal))))
      (m ((c : Thread nD τ).loc main_arg1)) (ix3 u k c')
    = result m c (((cfg0.win 3).blk t).view.emb (ix3 u k c'))
  rw [out_emb t u k c' ⟨t.val / 2, hb⟩ rfl]
  refine (Tile.entry_apply (iblk m c 0 ⟨t.val - 1, hp⟩) (iblk m c 0 t) (m ((c : Thread nD τ).loc main_arg1)) (scaleCol m c)
    (fun c'' n => merged m c (ix3 (⟨t.val / 2, hb⟩ : Fin 32) c'' n)) ?_ ?_ u k c').trans ?_
  · intro c'' j
    exact slab_read m c ⟨t.val - 1, hp⟩ (ix3 (0 : Fin 1) c'' j) (ix3 (⟨t.val / 2, hb⟩ : Fin 32) c'' (lo j))
      (by show t.val / 2 = (t.val - 1) / 2; omega) rfl (by show j.val = 8192 * ((t.val - 1) % 2) + j.val; omega)
  · intro c'' j
    exact slab_read m c t (ix3 (0 : Fin 1) c'' j) (ix3 (⟨t.val / 2, hb⟩ : Fin 32) c'' (hi j))
      rfl rfl (by show 8192 + j.val = 8192 * (t.val % 2) + j.val; omega)
  · have es : (fun k' : Fin 32 => scaleCol m c (ix2 k' (0 : Fin 1))) = fun k' => (m ((c : Thread nD τ).loc main_arg2)) (ix1 k') :=
      funext fun k' => TileOps.shapeCast_a_a1_apply _ shapeCasts_S32_S32x1 k' 0
    rw [es]
    rfl

/-- An index of the result is in point `t`'s output block iff each coordinate is in the block's range on its axis. -/
theorem mem_blk (t : Fin cfg0.N) (i : S32x32x128.Idx) :
    i ∈ ((cfg0.win 3).blk t).view.set ↔ ∀ a : Fin 3, win0_3.index t a * S1x32x128.size a ≤ (i a).val
      ∧ (i a).val < win0_3.index t a * S1x32x128.size a + S1x32x128.size a := by
  show i ∈ ((View.whole main_v2).slice (win0_3.rect t)).set ↔ _
  rw [View.set_slice_whole, Rect.mem_set_unit]
  exact Iff.rfl

/-- Every index of the result lies in the block some odd point writes back: batch entry `b` is point `2b + 1`'s. -/
theorem cover (i : S32x32x128.Idx) :
    ∃ t : Fin cfg0.N, (cfg0.win 3).flush t = true ∧ i ∈ ((cfg0.win 3).blk t).view.set := by
  have hi0 : (i 0).val < 32 := (i 0).isLt
  have hi1 : (i 1).val < 32 := (i 1).isLt
  have hi2 : (i 2).val < 128 := (i 2).isLt
  have hN : cfg0.N = 64 := N_0
  obtain ⟨t, ht⟩ : ∃ t : Fin cfg0.N, t.val = 2 * (i 0).val + 1 := ⟨⟨2 * (i 0).val + 1, by rw [hN]; omega⟩, rfl⟩
  obtain ⟨e0, e1, e2⟩ := out_index t
  refine ⟨t, (flush0_3 t).mpr (by omega), ?_⟩
  rw [mem_blk]
  intro a
  match a with
  | ⟨0, _⟩ =>
    show win0_3.index t (0 : Fin 3) * 1 ≤ (i 0).val ∧ (i 0).val < win0_3.index t (0 : Fin 3) * 1 + 1
    rw [e0]; omega
  | ⟨1, _⟩ =>
    show win0_3.index t (1 : Fin 3) * 32 ≤ (i 1).val ∧ (i 1).val < win0_3.index t (1 : Fin 3) * 32 + 32
    rw [e1]; omega
  | ⟨2, _⟩ =>
    show win0_3.index t (2 : Fin 3) * 128 ≤ (i 2).val ∧ (i 2).val < win0_3.index t (2 : Fin 3) * 128 + 128
    rw [e2]; omega

/-- THE RESULT ARRAY after the run is the encoding. -/
theorem final (c : Dev nD) : (dats m 0 c).arrAt 3 cfg0.N = result m c :=
  (dats m 0 c).arrAt_eq_of_cover 3 (result m c) (flushed_eq m c) cover

/-- The kernel's run, read: the result at the encoding of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefWhole.lean ====
/-
  The reference's result as the same function of the argument arrays, on the extended reals.

  The reference moves the positions in front of the channels (a transpose of the input viewed `[32, 128, 16384]`),
  computes the same scaled squared distances with the cross term's factors in the other order (`x · cw` where the
  kernel has `cw · x`: multiplication of extended reals commutes), takes the softmax with one more `max` against
  `-∞` (which changes nothing), and sums weight times input, and the weights, over all 16384 positions at once, each
  sum started from a zero constant. Read at coordinates, stage by stage, this is `SoftAssign.G`.
-/
import proofs.«131181_j20890720928159_2_alg».proof.Proof.Gen.ReferenceIdeal.Read
import proofs.«131181_j20890720928159_2_alg».proof.Proof.Spec
import Idealize.ShloMosaic.PureOps.Ideal.Laws
import Idealize.ShloMosaic.PureOps.Reduce
import Idealize.ShloMosaic.Lib.ValueIdx

noncomputable section

namespace Cert.ReferenceIdeal.Whole

open Cert.ReferenceIdeal Cert.ReferenceIdeal.Gen Cert.ReferenceIdeal.Read Idealize.ShloMosaic Idealize.ShloMosaic.ValueIdx
open Cert.SoftAssign

/-! ## The composed index maps, at coordinates -/

theorem ix_x_cross (b : Fin 32) (n : Fin 16384) (k : Fin 32) (c : Fin 128) :
    idx_main_v1 (lidx_main_v7 (ix3 b n k) c) = ix3 b c n := funext fun a => Fin.ext (by match a with | ⟨0, _⟩ => rfl | ⟨1, _⟩ => rfl | ⟨2, _⟩ => rfl)
theorem ix_cw_cross (b : Fin 32) (n : Fin 16384) (k : Fin 32) (c : Fin 128) :
    ridx_main_v7 (ix3 b n k) c = ix2 k c := funext fun a => Fin.ext (by match a with | ⟨0, _⟩ => rfl | ⟨1, _⟩ => rfl)
theorem ix_x_sq (b : Fin 32) (n : Fin 16384) (k : Fin 32) (c : Fin 128) :
    idx_main_v1 (idx_main_v3 (idx_main_v4 (idx_main_v10 (ix3 b n k))) c) = ix3 b c n := funext fun a => Fin.ext (by match a with | ⟨0, _⟩ => rfl | ⟨1, _⟩ => rfl | ⟨2, _⟩ => rfl)
theorem ix_cw_sq (b : Fin 32) (n : Fin 16384) (k : Fin 32) (c : Fin 128) :
    idx_main_v6 (idx_main_v12 (idx_main_v13 (ix3 b n k))) c = ix2 k c := funext fun a => Fin.ext (by match a with | ⟨0, _⟩ => rfl | ⟨1, _⟩ => rfl)
theorem ix_scale (b : Fin 32) (n : Fin 16384) (k : Fin 32) :
    idx_main_v15 (idx_main_v16 (ix3 b n k)) = ix1 k := funext fun a => Fin.ext (by match a with | ⟨0, _⟩ => rfl)
theorem ix_top (b : Fin 32) (n : Fin 16384) (k : Fin 32) :
    idx_main_v21 (idx_main_v22 (ix3 b n k)) = ix2 b n := funext fun a => Fin.ext (by match a with | ⟨0, _⟩ => rfl | ⟨1, _⟩ => rfl)
theorem ix_norm (b : Fin 32) (n : Fin 16384) (k k' : Fin 32) :
    idx_main_v25 (idx_main_v26 (idx_main_v27 (ix3 b n k))) k' = ix3 b n k' := funext fun a => Fin.ext (by match a with | ⟨0, _⟩ => rfl | ⟨1, _⟩ => rfl | ⟨2, _⟩ => rfl)
theorem ix_w_agg (b k : Fin 32) (c : Fin 128) (n : Fin 16384) :
    lidx_main_v29 (ix3 b k c) n = ix3 b n k := funext fun a => Fin.ext (by match a with | ⟨0, _⟩ => rfl | ⟨1, _⟩ => rfl | ⟨2, _⟩ => rfl)
theorem ix_x_agg (b k : Fin 32) (c : Fin 128) (n : Fin 16384) :
    idx_main_v1 (ridx_main_v29 (ix3 b k c) n) = ix3 b c n := funext fun a => Fin.ext (by match a with | ⟨0, _⟩ => rfl | ⟨1, _⟩ => rfl | ⟨2, _⟩ => rfl)
theorem ix_w_sum (b k : Fin 32) (c : Fin 128) (n : Fin 16384) :
    idx_main_v30 (idx_main_v31 (idx_main_v33 (ix3 b k c))) n = ix3 b n k := funext fun a => Fin.ext (by match a with | ⟨0, _⟩ => rfl | ⟨1, _⟩ => rfl | ⟨2, _⟩ => rfl)
theorem ix_cw_out (b k : Fin 32) (c : Fin 128) :
    idx_main_v32 (idx_main_v34 (ix3 b k c)) = ix2 k c := funext fun a => Fin.ext (by match a with | ⟨0, _⟩ => rfl | ⟨1, _⟩ => rfl)

/-- `max` against `-∞` changes nothing. -/
theorem max_negInf (y : EReal) : max negInf y = y := by
  show max (Ideal.ofBits .f32 0xFF800000#32) y = y
  simp [Ideal.ofBits, Ideal.ieee]

/-! ## The stages, at coordinates -/

/-- The scaled squared distances of the reference, at batch entry `b`, position `n`, codeword `k`. -/
theorem scaled_apply (x0 : (⟨S32x128x128x128, .f32⟩ : BufTy).Contents (Elt Ideal)) (x1 : (⟨S32x128, .f32⟩ : BufTy).Contents (Elt Ideal)) (x2 : (⟨S32, .f32⟩ : BufTy).Contents (Elt Ideal))
    (b : Fin 32) (n : Fin 16384) (k : Fin 32) :
    val_main_v17 (F := Ideal) x0 x1 x2 (ix3 b n k) = scaled (fun c => val_main_v0 (F := Ideal) x0 (ix3 b c n)) (fun k' c => x1 (ix2 k' c)) (fun k' => x2 (ix1 k')) k := by
  rw [val_main_v17_apply, val_main_v16_apply, val_main_v15_apply, val_main_v14_apply, val_main_v11_apply,
    val_main_v13_apply, val_main_v12_apply, val_main_v6_apply, val_main_v10_apply, val_main_v4_apply, val_main_v3_apply,
    val_main_v9_apply, val_main_v8_apply, val_main_cst_1_apply, val_main_v7_apply]
  simp only [val_main_v5_apply, val_main_v2_apply, val_main_v1_apply, val_main_cst_apply, val_main_cst_0_apply,
    ix_x_cross, ix_cw_cross, ix_x_sq, ix_cw_sq, ix_scale, Ideal.ofBits_def, Ideal.mulf_def, Ideal.subf_def, Ideal.addf_def,
    Ideal.ofBits_zero_f32, zero_add]
  unfold scaled
  rw [Finset.sum_congr rfl fun c _ => mul_comm (val_main_v0 (F := Ideal) x0 (ix3 b c n)) (x1 (ix2 k c))]

/-- Reducing the last axis of `[32, 16384, 32]`: `(b, n)` with codeword `k` put back is `(b, n, k)`. -/
theorem lift_codes (h : S32x16384x32.Reduces [2] S32x16384) (b : Fin 32) (n : Fin 16384)
    (k : Fin (S32x16384x32.size 2)) : h.lift (ix2 b n) k = ix3 b n (⟨k.val, k.isLt⟩ : Fin 32) := by
  funext c; apply Fin.ext
  fin_cases c <;> rfl

/-- The largest scaled distance at `(b, n)`: the reference's reduce from `-∞`, then one more `max` with `-∞`. -/
theorem top_apply (x0 : (⟨S32x128x128x128, .f32⟩ : BufTy).Contents (Elt Ideal)) (x1 : (⟨S32x128, .f32⟩ : BufTy).Contents (Elt Ideal)) (x2 : (⟨S32, .f32⟩ : BufTy).Contents (Elt Ideal))
    (b : Fin 32) (n : Fin 16384) :
    val_main_v20 (F := Ideal) x0 x1 x2 (ix2 b n) = top (fun c => val_main_v0 (F := Ideal) x0 (ix3 b c n)) (fun k' c => x1 (ix2 k' c)) (fun k' => x2 (ix1 k')) := by
  rw [val_main_v20_apply, val_main_v19_apply, val_main_cst_3_apply]
  show max negInf (val_main_v18 (F := Ideal) x0 x1 x2 (ix2 b n)) = _
  rw [max_negInf]
  unfold val_main_v18
  have hr : S32x16384x32.Reduces [2] S32x16384 := by decide
  rw [Host.reduce_eq_fold_single FloatOps.maximumf _ _ reducesTo_S32x16384x32_S32x16384_d2 hr h_S_]
  have hf : (val_main_v17 (F := Ideal) x0 x1 x2 ∘ hr.lift (ix2 b n)) = scaled (fun c => val_main_v0 (F := Ideal) x0 (ix3 b c n)) (fun k' c => x1 (ix2 k' c)) (fun k' => x2 (ix1 k')) :=
    funext fun k => by
      show val_main_v17 (F := Ideal) x0 x1 x2 (hr.lift (ix2 b n) k) = _
      rw [lift_codes hr b n k]
      exact scaled_apply x0 x1 x2 b n _
  rw [hf]
  rfl

/-- The unnormalized softmax weight at `(b, n, k)`. -/
theorem expw_apply (x0 : (⟨S32x128x128x128, .f32⟩ : BufTy).Contents (Elt Ideal)) (x1 : (⟨S32x128, .f32⟩ : BufTy).Contents (Elt Ideal)) (x2 : (⟨S32, .f32⟩ : BufTy).Contents (Elt Ideal))
    (b : Fin 32) (n : Fin 16384) (k : Fin 32) :
    val_main_v24 (F := Ideal) x0 x1 x2 (ix3 b n k) = expw (fun c => val_main_v0 (F := Ideal) x0 (ix3 b c n)) (fun k' c => x1 (ix2 k' c)) (fun k' => x2 (ix1 k')) k := by
  rw [val_main_v24_apply, val_main_v23_apply, val_main_v22_apply, val_main_v21_apply, ix_top, top_apply, scaled_apply]
  rfl

/-- THE REFERENCE'S WEIGHTS: at `(b, n, k)` the softmax weight of column `X[b, ·, n]`. -/
theorem weight_apply (x0 : (⟨S32x128x128x128, .f32⟩ : BufTy).Contents (Elt Ideal)) (x1 : (⟨S32x128, .f32⟩ : BufTy).Contents (Elt Ideal)) (x2 : (⟨S32, .f32⟩ : BufTy).Contents (Elt Ideal))
    (b : Fin 32) (n : Fin 16384) (k : Fin 32) :
    val_main_v28 (F := Ideal) x0 x1 x2 (ix3 b n k) = weight (fun c => val_main_v0 (F := Ideal) x0 (ix3 b c n)) (fun k' c => x1 (ix2 k' c)) (fun k' => x2 (ix1 k')) k := by
  rw [val_main_v28_apply, val_main_v27_apply, val_main_v26_apply, val_main_v25_apply, val_main_cst_4_apply, expw_apply]
  simp only [ix_norm, expw_apply, Ideal.ofBits_def, Ideal.ofBits_zero_f32, zero_add]
  rfl

/-- THE REFERENCE'S RESULT is the encoding of the input viewed `[32, 128, 16384]`, the codewords and the scales. -/
theorem result_eq (x0 : (⟨S32x128x128x128, .f32⟩ : BufTy).Contents (Elt Ideal)) (x1 : (⟨S32x128, .f32⟩ : BufTy).Contents (Elt Ideal)) (x2 : (⟨S32, .f32⟩ : BufTy).Contents (Elt Ideal)) :
    val_main_v36 (F := Ideal) x0 x1 x2 = G (val_main_v0 (F := Ideal) x0) x1 x2 := by
  funext i
  obtain ⟨b, k, c, rfl⟩ : ∃ (b : Fin 32) (k : Fin 32) (c : Fin 128), i = ix3 b k c := ⟨i 0, i 1, i 2, eq_ix3 i⟩
  rw [val_main_v36_apply, val_main_v29_apply, val_main_v35_apply, val_main_v33_apply, val_main_v31_apply,
    val_main_v30_apply, val_main_cst_5_apply, val_main_v34_apply, val_main_v32_apply]
  simp only [val_main_v1_apply, ix_w_agg, ix_x_agg, ix_w_sum, ix_cw_out, weight_apply, Ideal.ofBits_def,
    Ideal.ofBits_zero_f32, zero_add, Ideal.subf_def, Ideal.mulf_def]
  rfl

end Cert.ReferenceIdeal.Whole

end
-- ==== Proof.lean ====
/-
  A soft-assignment encoding layer: a tiled kernel against its whole-array reference, equal on the extended reals.

  For a batch entry `b` and a spatial position `n` (of 128 · 128 = 16384) let `x = X[b, ·, n]` be the column of 128
  channels. Each of 32 codewords `cw_k` with scale `s_k` gets the scaled squared distance
  `s_k · ((Σ_c x_c² − 2 Σ_c cw_kc x_c) + Σ_c cw_kc²)`, the softmax of these over the codewords gives weights
  `a_n(k)`, and the result is `enc[b, k, c] = Σ_n a_n(k) · X[b, c, n] − (Σ_n a_n(k)) · cw_kc`.

  The kernel walks each batch entry in two tiles of 8192 positions, keeping the two sums over `n` in buffers it
  carries from the first tile to the second (zeroed on the first tile) and writing the output block after the
  second; the reference computes everything on whole arrays. The two programs differ only in: the tiling of the
  sums over `n` (two half sums from a zero start against one sum), the order of the two factors in the cross term,
  one extra `max` with `-∞` in the reference's softmax, and changes of float format, which are the identity here.
  Addition and multiplication of extended reals are commutative and associative, so none of this needs the inputs to
  be finite, and the precondition is never opened.

  Modules: `Spec` (the encoding as one function `G`, and the half-sum law), `TileOps` and `Tile` (the kernel
  body's operations and payloads at coordinates; one batch entry's two tiles give the encoding), `Pieces` (what each
  control case of the body leaves in its buffers), `KernelWhole` (the kernel's result array is `G`), `RefWhole`
  (the reference's result is `G`). The kernel's idealization rewrote nothing, so that conjunct is trivial.
-/
import proofs.«131181_j20890720928159_2_alg».proof.Defs
import proofs.«131181_j20890720928159_2_alg».proof.Proof.Gen.Kernel
import proofs.«131181_j20890720928159_2_alg».proof.Proof.Gen.Kernel.Skeleton
import proofs.«131181_j20890720928159_2_alg».proof.Proof.Gen.Kernel.Launch
import proofs.«131181_j20890720928159_2_alg».proof.Proof.Gen.Kernel.Points
import proofs.«131181_j20890720928159_2_alg».proof.Proof.Gen.Kernel.Frame
import proofs.«131181_j20890720928159_2_alg».proof.Proof.Gen.KernelIdeal
import proofs.«131181_j20890720928159_2_alg».proof.Proof.Gen.KernelIdeal.Skeleton
import proofs.«131181_j20890720928159_2_alg».proof.Proof.Gen.KernelIdeal.Launch
import proofs.«131181_j20890720928159_2_alg».proof.Proof.Gen.KernelIdeal.Points
import proofs.«131181_j20890720928159_2_alg».proof.Proof.Gen.KernelIdeal.Frame
import proofs.«131181_j20890720928159_2_alg».proof.Proof.Gen.ReferenceIdeal
import proofs.«131181_j20890720928159_2_alg».proof.Proof.Gen.Pre_finite_inputs
import proofs.«131181_j20890720928159_2_alg».proof.Proof.Gen.KernelIdeal.Value
import proofs.«131181_j20890720928159_2_alg».proof.Proof.Gen.ReferenceIdeal.Run
import proofs.«131181_j20890720928159_2_alg».proof.Proof.Gen.ReferenceIdeal.Read
import proofs.«131181_j20890720928159_2_alg».proof.Proof.KernelWhole
import proofs.«131181_j20890720928159_2_alg».proof.Proof.RefWhole
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the three arguments both programs end with the encoding `SoftAssign.G` of the input
    viewed `[32, 128, 16384]`, the codewords and the scales: the kernel by its two tiles per batch entry, the
    reference by its whole-array stages. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.ReferenceIdeal.Whole.result_eq, (hagree c).1, (hagree c).2.1,
    (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
